-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x8 : Shape := ⟨2, ![8388608, 8]⟩
abbrev S_ : Shape := ⟨0, ![]⟩

class Facts : Prop where
  bcast_S_S8388608x8 : S_.BroadcastsInDim S8388608x8 (![] : Fin 0 → Fin S8388608x8.rank)
  reducesTo_S8388608x8_S_d0_1 : S8388608x8.ReducesTo [0, 1] S_
  h_S_ : 0 < S_.numel

variable [Facts]

def fn {F : FTy → Type} [FloatOps F] (main_arg0 : FVec F S8388608x8 .f32) : IVec S_ 1 :=
  let main_v0 : FVec F S8388608x8 .f32 := Host.absf main_arg0
  let main_cst : FVec F S_ .f32 := constant S_ .f32 0x7F800000#32
  let main_v1 : FVec F S8388608x8 .f32 := broadcastInDim S8388608x8 ![] bcast_S_S8388608x8 main_cst
  let main_v2 : IVec S8388608x8 1 := cmpf .olt main_v0 main_v1
  let main_c : IVec S_ 1 := constantI S_ 1 1#1
  let main_v3 : IVec S_ 1 := (fun x v => Host.reduce IntOp.andi x v reducesTo_S8388608x8_S_d0_1 h_S_) main_v2 main_c
  main_v3
-- ==== Kernel.lean ====
abbrev S8388608x8 : Shape := ⟨2, ![8388608, 8]⟩
abbrev S8388608 : Shape := ⟨1, ![8388608]⟩
abbrev S8192x8 : Shape := ⟨2, ![8192, 8]⟩
abbrev S8192 : Shape := ⟨1, ![8192]⟩
abbrev S8192x1 : Shape := ⟨2, ![8192, 1]⟩

abbrev nBuf : Space → Nat
  | .hbm => 2
  | .vmem => 4
  | .smem => 0
  | _ => 0

abbrev bufTy : (tb : Table) → Fin (tcTables nBuf tb) → BufTy
  | .hbm, ⟨0, _⟩ => ⟨S8388608x8, .f32⟩
  | .hbm, ⟨1, _⟩ => ⟨S8388608, .f32⟩
  | .local _ .vmem, ⟨0, _⟩ => ⟨S8192x8, .f32⟩
  | .local _ .vmem, ⟨1, _⟩ => ⟨S8192x8, .f32⟩
  | .local _ .vmem, ⟨2, _⟩ => ⟨S8192, .f32⟩
  | .local _ .vmem, ⟨3, _⟩ => ⟨S8192, .f32⟩
  | _, _ => ⟨S8388608x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8192x8_S8192x8_0_0 : ∀ a, (![0, 0] : Fin 2 → Nat) a + S8192x8.size a ≤ S8192x8.size a
  h_S8192x8 : 0 < S8192x8.numel
  slices_S8192x8_o0_0_S8192x1 : S8192x8.Slices ![0, 0] S8192x1
  shapeCasts_S8192x1_S8192 : S8192x1.ShapeCasts S8192
  slices_S8192x8_o0_1_S8192x1 : S8192x8.Slices ![0, 1] S8192x1
  slices_S8192x8_o0_2_S8192x1 : S8192x8.Slices ![0, 2] S8192x1
  slices_S8192x8_o0_3_S8192x1 : S8192x8.Slices ![0, 3] S8192x1
  slices_S8192x8_o0_4_S8192x1 : S8192x8.Slices ![0, 4] S8192x1
  slices_S8192x8_o0_5_S8192x1 : S8192x8.Slices ![0, 5] S8192x1
  slices_S8192x8_o0_6_S8192x1 : S8192x8.Slices ![0, 6] S8192x1
  slices_S8192x8_o0_7_S8192x1 : S8192x8.Slices ![0, 7] S8192x1
  inb_S8192_S8192_0 : ∀ a, (![0] : Fin 1 → Nat) a + S8192.size a ≤ S8192.size a
  h_S8192 : 0 < S8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S8388608x8.size a
  hwx0_0 : ∀ i : grid0.Coords, EltTy.bits .f32 = 32 ∨ (Rect.block (s := S8388608x8) S8192x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S8388608.size a
  hwx0_1 : ∀ i : grid0.Coords, EltTy.bits .f32 = 32 ∨ (Rect.block (s := S8388608) S8192.size (cc0_transform_1 i) (hinb0_1 i)).WholeWords (EltTy.packing .f32)

variable [Facts₀]

abbrev win0_0 : Pipeline.Window sig grid0 :=
  Pipeline.Window.ofSpec (Memref.whole main_arg0) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608x8 : Shape := ⟨2, ![8388608, 8]⟩
abbrev S8388608x1 : Shape := ⟨2, ![8388608, 1]⟩
abbrev S8388608 : Shape := ⟨1, ![8388608]⟩

abbrev nBuf : Space → Nat
  | .hbm => 31
  | .vmem => 0
  | .smem => 0
  | _ => 0

abbrev bufTy : (tb : Table) → Fin (tcTables nBuf tb) → BufTy
  | .hbm, ⟨0, _⟩ => ⟨S8388608x8, .f32⟩
  | .hbm, ⟨1, _⟩ => ⟨S8388608x1, .f32⟩
  | .hbm, ⟨2, _⟩ => ⟨S8388608, .f32⟩
  | .hbm, ⟨3, _⟩ => ⟨S8388608x1, .f32⟩
  | .hbm, ⟨4, _⟩ => ⟨S8388608, .f32⟩
  | .hbm, ⟨5, _⟩ => ⟨S8388608x1, .f32⟩
  | .hbm, ⟨6, _⟩ => ⟨S8388608, .f32⟩
  | .hbm, ⟨7, _⟩ => ⟨S8388608x1, .f32⟩
  | .hbm, ⟨8, _⟩ => ⟨S8388608, .f32⟩
  | .hbm, ⟨9, _⟩ => ⟨S8388608x1, .f32⟩
  | .hbm, ⟨10, _⟩ => ⟨S8388608, .f32⟩
  | .hbm, ⟨11, _⟩ => ⟨S8388608x1, .f32⟩
  | .hbm, ⟨12, _⟩ => ⟨S8388608, .f32⟩
  | .hbm, ⟨13, _⟩ => ⟨S8388608x1, .f32⟩
  | .hbm, ⟨14, _⟩ => ⟨S8388608, .f32⟩
  | .hbm, ⟨15, _⟩ => ⟨S8388608x1, .f32⟩
  | .hbm, ⟨16, _⟩ => ⟨S8388608, .f32⟩
  | .hbm, ⟨17, _⟩ => ⟨S8388608, .f32⟩
  | .hbm, ⟨18, _⟩ => ⟨S8388608, .f32⟩
  | .hbm, ⟨19, _⟩ => ⟨S8388608, .f32⟩
  | .hbm, ⟨20, _⟩ => ⟨S8388608, .f32⟩
  | .hbm, ⟨21, _⟩ => ⟨S8388608, .f32⟩
  | .hbm, ⟨22, _⟩ => ⟨S8388608, .f32⟩
  | .hbm, ⟨23, _⟩ => ⟨S8388608, .f32⟩
  | .hbm, ⟨24, _⟩ => ⟨S8388608, .f32⟩
  | .hbm, ⟨25, _⟩ => ⟨S8388608, .f32⟩
  | .hbm, ⟨26, _⟩ => ⟨S8388608, .f32⟩
  | .hbm, ⟨27, _⟩ => ⟨S8388608, .f32⟩
  | .hbm, ⟨28, _⟩ => ⟨S8388608, .f32⟩
  | .hbm, ⟨29, _⟩ => ⟨S8388608, .f32⟩
  | .hbm, ⟨30, _⟩ => ⟨S8388608, .f32⟩
  | _, _ => ⟨S8388608x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩

abbrev nD : Nat := 1
abbrev τ : Topo := Topo.v7x

variable {F : FTy → Type} [FloatOps F]

class Facts₀ : Prop where
  slices_S8388608x8_S8388608x1_0_0 : S8388608x8.Slices ![0, 0] S8388608x1
  shapeCasts_S8388608x1_S8388608 : S8388608x1.ShapeCasts S8388608
  slices_S8388608x8_S8388608x1_0_1 : S8388608x8.Slices ![0, 1] S8388608x1
  slices_S8388608x8_S8388608x1_0_2 : S8388608x8.Slices ![0, 2] S8388608x1
  slices_S8388608x8_S8388608x1_0_3 : S8388608x8.Slices ![0, 3] S8388608x1
  slices_S8388608x8_S8388608x1_0_4 : S8388608x8.Slices ![0, 4] S8388608x1
  slices_S8388608x8_S8388608x1_0_5 : S8388608x8.Slices ![0, 5] S8388608x1
  slices_S8388608x8_S8388608x1_0_6 : S8388608x8.Slices ![0, 6] S8388608x1
  slices_S8388608x8_S8388608x1_0_7 : S8388608x8.Slices ![0, 7] S8388608x1

variable [Facts₀]

class Facts : Prop extends Facts₀ where

variable [Facts]
-- ==== Proof.RowFormula.lean ====
/-
  The value both programs compute, as one function of the input table.

  The input is a table of 8388608 rows of 8 extended reals; the result has one entry per row, and entry `r` depends on
  row `r` alone. Writing `f k` for the row's `k`-th entry, it is

      tanh ((f 0 · f 1 + sin (f 2)) · exp (−|f 3|) + f 4 / (f 5 · f 5 + exp (f 6)) − f 7),

  every operation the extended reals' own: `|a|` is `max a (−a)`, and the quotient, the exponential, the sine and the
  hyperbolic tangent carry their conventions at the infinities. Nothing below asks an entry to be finite.

  One program writes `−|f 3|` as a negation, the other as the difference `0 − |f 3|`. On the extended reals
  `0 − a = −a` for every `a`, the infinities included (`0 − ⊤ = 0 + ⊥ = ⊥ = −⊤`), so the two spellings are one value:
  `rowOf_zero_sub`.
-/
import Idealize.ShloMosaic.PureOps.Ideal
import Idealize.ShloMosaic.PureOps.Ideal.Laws
import Idealize.ShloMosaic.Lib.ValueIdx

noncomputable section

namespace Cert.RowFormula

open Idealize.ShloMosaic Idealize.ShloMosaic.ValueIdx

/-- One row's value from the row's eight entries. -/
def rowOf (f : Fin 8 → EReal) : EReal :=
  Ideal.tanh ((f 0 * f 1 + Ideal.sin (f 2)) * Ideal.exp (-(max (f 3) (-(f 3))))
    + Ideal.div (f 4) (f 5 * f 5 + Ideal.exp (f 6)) - f 7)

/-- The whole result: entry `i` is the value of row `i` of the table. -/
def rows (x : (⟨2, ![8388608, 8]⟩ : Shape).Idx → EReal) : (⟨1, ![8388608]⟩ : Shape).Idx → EReal :=
  fun i => rowOf fun k => x (ix2 (i 0) k)

/-- The row's value with the negated absolute value written as a difference from zero: the same extended real, because
    `0 − a = −a` holds for every extended real `a`. -/
theorem rowOf_zero_sub (f : Fin 8 → EReal) :
    Ideal.tanh ((f 0 * f 1 + Ideal.sin (f 2)) * Ideal.exp (0 - max (f 3) (-(f 3)))
      + Ideal.div (f 4) (f 5 * f 5 + Ideal.exp (f 6)) - f 7) = rowOf f := by
  unfold rowOf
  rw [zero_sub]

end Cert.RowFormula

end
-- ==== Proof.KernelRows.lean ====
/-
  The kernel's result array is `rows` of its argument.

  The kernel walks the table in 1024 steps; step `t` loads rows `8192·t … 8192·t + 8191` (all eight columns) as one
  block and writes the 8192 results of those rows back to the same positions of the result array.

  * Inside one step (`block_row`, `out_row`): the block the step leaves is, entry by entry, `rowOf` of the loaded
    block's row at the same position. The step spells `−|a|` as `0 − |a|` with the zero a float literal; the literal is the
    extended real `0`, and `0 − a = −a` there.
  * From steps to the array (`flushed_rows`, `covered`, `final_rows`): row `y` of step `t`'s block is row
    `8192·t + y` of the table, for the input block and the output block alike, so what step `t` writes back is block `t` of
    `rows` of the table; and every result index `i` lies in the block of step `i / 8192`. Hence the whole array ends
    equal to `rows` of the table as the kernel found it.
-/
import proofs.«134112_j82643760709953_2_alg».proof.Proof.Gen.KernelIdeal.Value
import proofs.«134112_j82643760709953_2_alg».proof.Proof.RowFormula

noncomputable section

namespace Cert.KernelIdeal.RowValue

open Cert.KernelIdeal Cert.KernelIdeal.Gen Idealize.ShloMosaic Idealize.ShloMosaic.TcCoe Idealize.SL.Sem
open Idealize.ShloMosaic.Pipeline (Dat)
open Idealize.ShloMosaic.ValueIdx Cert.RowFormula

variable (m : (ℓ : Loc nD τ sig) → Buf (Elt Ideal) ℓ) (ρ : Dev nD → PrngReg)

/-! ## One step -/

/-- The zero offsets of a whole-block access, as the constant function. -/
theorem zero_offsets : (![0, 0] : Fin 2 → Nat) = fun _ => 0 := funext fun a => by fin_cases a <;> rfl

/-- What a step computes from a loaded block `P0`, at block position `y`: `rowOf` of row `y` of the block. Each of the
    nine reads lands on row `y` at its column, the zero literal is `0`, and `0 − |a| = −|a|`. -/
theorem block_row (P0 : Vec Ideal S8192x8 .f32) (y : S8192.Idx) :
    Value.E1 (F := Ideal) P0 y = rowOf fun k => P0 (ix2 (y 0) k) := by
  have e0 : Value.ix1_0 y = ix2 (y 0) (0 : Fin 8) := funext fun a => by match a with | ⟨0, _⟩ => rfl | ⟨1, _⟩ => rfl
  have e1 : Value.ix1_1 y = ix2 (y 0) (1 : Fin 8) := funext fun a => by match a with | ⟨0, _⟩ => rfl | ⟨1, _⟩ => rfl
  have e2 : Value.ix1_2 y = ix2 (y 0) (2 : Fin 8) := funext fun a => by match a with | ⟨0, _⟩ => rfl | ⟨1, _⟩ => rfl
  have e3 : Value.ix1_3 y = ix2 (y 0) (3 : Fin 8) := funext fun a => by match a with | ⟨0, _⟩ => rfl | ⟨1, _⟩ => rfl
  have e4 : Value.ix1_4 y = ix2 (y 0) (4 : Fin 8) := funext fun a => by match a with | ⟨0, _⟩ => rfl | ⟨1, _⟩ => rfl
  have e5 : Value.ix1_5 y = ix2 (y 0) (5 : Fin 8) := funext fun a => by match a with | ⟨0, _⟩ => rfl | ⟨1, _⟩ => rfl
  have e6 : Value.ix1_6 y = ix2 (y 0) (5 : Fin 8) := funext fun a => by match a with | ⟨0, _⟩ => rfl | ⟨1, _⟩ => rfl
  have e7 : Value.ix1_7 y = ix2 (y 0) (6 : Fin 8) := funext fun a => by match a with | ⟨0, _⟩ => rfl | ⟨1, _⟩ => rfl
  have e8 : Value.ix1_8 y = ix2 (y 0) (7 : Fin 8) := funext fun a => by match a with | ⟨0, _⟩ => rfl | ⟨1, _⟩ => rfl
  show Ideal.tanh ((P0 (Value.ix1_0 y) * P0 (Value.ix1_1 y) + Ideal.sin (P0 (Value.ix1_2 y)))
        * Ideal.exp (Ideal.ofBits .f32 0x00000000#32 - max (P0 (Value.ix1_3 y)) (-(P0 (Value.ix1_3 y))))
      + Ideal.div (P0 (Value.ix1_4 y)) (P0 (Value.ix1_5 y) * P0 (Value.ix1_6 y) + Ideal.exp (P0 (Value.ix1_7 y)))
      - P0 (Value.ix1_8 y)) = _
  rw [e0, e1, e2, e3, e4, e5, e6, e7, e8, Ideal.ofBits_zero_f32]
  exact rowOf_zero_sub fun k => P0 (ix2 (y 0) k)

/-- What a step leaves in the output block, from the input block `x0` it was given: the load takes the whole block, the
    one store covers the whole output block, and its payload is `block_row`'s. -/
theorem out_row (x0 : Vec Ideal S8192x8 .f32) (y : S8192.Idx) :
    out0_1 (F := Ideal) x0 y = rowOf fun k => x0 (ix2 (y 0) k) := by
  unfold out0_1
  rw [View.ld_unit_zero (S := S8192x8) zero_offsets]
  exact (Value.canon1_eq x0 y).trans (block_row x0 y)

/-! ## From the steps to the array -/

/-- The input block of step `t` is block `t` along the rows and the only block along the columns (decided over the
    1024 steps). -/
theorem in_block : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- WHAT STEP `t` WRITES BACK is block `t` of `rows` of the table: position `j` of the output block is result index
    `8192·t + j`, and row `j` of the input block is row `8192·t + j` of the table. -/
theorem flushed_rows (c : Dev nD) (t : Fin cfg0.N) :
    (dats m 0 c).flushed 1 t = ((cfg0.win 1).blk t).view.read (Elt Ideal) (rows (V m c main_arg0)) := by
  rw [Value.flushed1]
  funext j
  show out0_1 (iblk m c 0 t) j = rows (V m c main_arg0) (((cfg0.win 1).blk t).view.emb j)
  refine (out_row (iblk m c 0 t) j).trans ?_
  show rowOf (fun k => V m c main_arg0 (((cfg0.win 0).blk t).view.emb (ix2 (j 0) k)))
    = rowOf (fun k => V m c main_arg0 (ix2 ((((cfg0.win 1).blk t).view.emb j) 0) k))
  congr 1; funext k; congr 1
  funext a; apply Fin.ext
  obtain ⟨r0, r1⟩ := in_block t
  have r2 := Value.idx_pt1 t
  match a with
  | ⟨0, _⟩ =>
    show win0_0.index t (0 : Fin 2) * 8192 + 1 * (j 0).val = win0_1.index t ⟨0, by decide⟩ * 8192 + 1 * (j 0).val
    omega
  | ⟨1, _⟩ =>
    show win0_0.index t (1 : Fin 2) * 8 + 1 * k.val = k.val
    omega

/-- A result index is in step `t`'s output block iff it lies in that block's range of rows. -/
theorem mem_block (t : Fin cfg0.N) (i : S8388608.Idx) :
    i ∈ ((cfg0.win 1).blk t).view.set ↔ ∀ a : Fin 1, win0_1.index t a * S8192.size a ≤ (i a).val ∧ (i a).val < win0_1.index t a * S8192.size a + S8192.size a := by
  show i ∈ ((View.whole main_v0).slice (win0_1.rect t)).set ↔ _
  rw [View.set_slice_whole, Rect.mem_set_unit]
  exact Iff.rfl

/-- Every result index is written by some step: index `i` by step `i / 8192`. -/
theorem covered (i : S8388608.Idx) :
    ∃ t : Fin cfg0.N, (cfg0.win 1).flush t = true ∧ i ∈ ((cfg0.win 1).blk t).view.set := by
  have hi : (i 0).val < 8388608 := (i 0).isLt
  have hN : (i 0).val / 8192 < grid0.N := by rw [N_0]; omega
  refine ⟨⟨(i 0).val / 8192, hN⟩, flush0_1 _, ?_⟩
  rw [mem_block]
  intro a
  have e := Value.idx_pt1 ⟨(i 0).val / 8192, hN⟩
  match a with
  | ⟨0, _⟩ =>
    show win0_1.index ⟨(i 0).val / 8192, hN⟩ ⟨0, by decide⟩ * 8192 ≤ (i 0).val
      ∧ (i 0).val < win0_1.index ⟨(i 0).val / 8192, hN⟩ ⟨0, by decide⟩ * 8192 + 8192
    rw [e]
    show (i 0).val / 8192 * 8192 ≤ (i 0).val ∧ (i 0).val < (i 0).val / 8192 * 8192 + 8192
    omega

/-- THE RESULT ARRAY after the run is `rows` of the table as launched. -/
theorem final_rows (c : Dev nD) :
    (dats m 0 c).arrAt 1 cfg0.N = rows (m ((c : Thread nD τ).loc main_arg0)) :=
  (dats m 0 c).arrAt_eq_of_cover 1 (rows (V m c main_arg0)) (fun t _ => flushed_rows m c t) covered

/-- The kernel's run, read: every weakly fair execution ends with the result array at `rows` of the argument and the
    argument unchanged. -/
theorem run : θ_run defs (onTc (τ := τ) (main (F := Ideal))) ⟨m, fun _ => 0, ρ⟩ fun r => ∀ c : Dev nD,
      r.2.mem ((c : Thread nD τ).loc main_v0) = rows (m ((c : Thread nD τ).loc main_arg0))
      ∧ r.2.mem ((c : Thread nD τ).loc main_arg0) = m ((c : Thread nD τ).loc main_arg0) :=
  (θ_run defs _ _).mono (fun r h c => ⟨(h c).1.trans (final_rows m c), (h c).2⟩) (Value.run_blocks m ρ)

end Cert.KernelIdeal.RowValue

end
-- ==== Proof.ReferenceRows.lean ====
/-
  The reference program computes `rows` of its argument.

  The reference cuts the table into its eight columns (a slice of width one, then a reshape that drops the unit axis),
  combines the columns entry by entry, and returns the result. Read at a result index `i`, each column is the table's
  entry at row `i` and that column (`col0` … `col7`), and the entrywise operations are, on the extended reals, the ones
  `rowOf` is written with: the host's sine, exponential, hyperbolic tangent and quotient are the extended reals' own, its
  absolute value is `max a (−a)` and its negation is `−a`. So the last stage of the reference, at every index, is the
  row's value.
-/
import proofs.«134112_j82643760709953_2_alg».proof.Proof.Gen.ReferenceIdeal.Read
import proofs.«134112_j82643760709953_2_alg».proof.Proof.RowFormula

noncomputable section

namespace Cert.ReferenceIdeal.RowValue

open Cert.ReferenceIdeal Cert.ReferenceIdeal.Gen Idealize.ShloMosaic Idealize.ShloMosaic.TcCoe Idealize.SL.Sem
open Idealize.ShloMosaic.ValueIdx Cert.RowFormula

/-- Result entry `i` reads column 0 of the table at row `i`: the slice keeps column 0, the reshape drops the unit axis. -/
theorem col0 (i : S8388608.Idx) : Read.idx_main_v0 (Read.idx_main_v1 i) = ix2 (i 0) (0 : Fin 8) :=
  funext fun a => Fin.ext (by match a with | ⟨0, _⟩ => exact Nat.div_one _ | ⟨1, _⟩ => rfl)

/-- Result entry `i` reads column 1 of the table at row `i`: the slice keeps column 1, the reshape drops the unit axis. -/
theorem col1 (i : S8388608.Idx) : Read.idx_main_v2 (Read.idx_main_v3 i) = ix2 (i 0) (1 : Fin 8) :=
  funext fun a => Fin.ext (by match a with | ⟨0, _⟩ => exact Nat.div_one _ | ⟨1, _⟩ => rfl)

/-- Result entry `i` reads column 2 of the table at row `i`: the slice keeps column 2, the reshape drops the unit axis. -/
theorem col2 (i : S8388608.Idx) : Read.idx_main_v4 (Read.idx_main_v5 i) = ix2 (i 0) (2 : Fin 8) :=
  funext fun a => Fin.ext (by match a with | ⟨0, _⟩ => exact Nat.div_one _ | ⟨1, _⟩ => rfl)

/-- Result entry `i` reads column 3 of the table at row `i`: the slice keeps column 3, the reshape drops the unit axis. -/
theorem col3 (i : S8388608.Idx) : Read.idx_main_v6 (Read.idx_main_v7 i) = ix2 (i 0) (3 : Fin 8) :=
  funext fun a => Fin.ext (by match a with | ⟨0, _⟩ => exact Nat.div_one _ | ⟨1, _⟩ => rfl)

/-- Result entry `i` reads column 4 of the table at row `i`: the slice keeps column 4, the reshape drops the unit axis. -/
theorem col4 (i : S8388608.Idx) : Read.idx_main_v8 (Read.idx_main_v9 i) = ix2 (i 0) (4 : Fin 8) :=
  funext fun a => Fin.ext (by match a with | ⟨0, _⟩ => exact Nat.div_one _ | ⟨1, _⟩ => rfl)

/-- Result entry `i` reads column 5 of the table at row `i`: the slice keeps column 5, the reshape drops the unit axis. -/
theorem col5 (i : S8388608.Idx) : Read.idx_main_v10 (Read.idx_main_v11 i) = ix2 (i 0) (5 : Fin 8) :=
  funext fun a => Fin.ext (by match a with | ⟨0, _⟩ => exact Nat.div_one _ | ⟨1, _⟩ => rfl)

/-- Result entry `i` reads column 6 of the table at row `i`: the slice keeps column 6, the reshape drops the unit axis. -/
theorem col6 (i : S8388608.Idx) : Read.idx_main_v12 (Read.idx_main_v13 i) = ix2 (i 0) (6 : Fin 8) :=
  funext fun a => Fin.ext (by match a with | ⟨0, _⟩ => exact Nat.div_one _ | ⟨1, _⟩ => rfl)

/-- Result entry `i` reads column 7 of the table at row `i`: the slice keeps column 7, the reshape drops the unit axis. -/
theorem col7 (i : S8388608.Idx) : Read.idx_main_v14 (Read.idx_main_v15 i) = ix2 (i 0) (7 : Fin 8) :=
  funext fun a => Fin.ext (by match a with | ⟨0, _⟩ => exact Nat.div_one _ | ⟨1, _⟩ => rfl)

/-- The reference's result, as a function of the table, is `rows`: at index `i` the stages read the eight entries of
    row `i`, and their composition is `rowOf` of those entries. -/
theorem reference_rows (x0 : FVec Ideal S8388608x8 .f32) : Read.val_main_v29 (F := Ideal) x0 = rows x0 := by
  funext i
  simp only [Read.val_main_v29_apply, Read.val_main_v28_apply, Read.val_main_v27_apply, Read.val_main_v26_apply, Read.val_main_v25_apply, Read.val_main_v24_apply, Read.val_main_v23_apply, Read.val_main_v22_apply, Read.val_main_v21_apply, Read.val_main_v20_apply, Read.val_main_v19_apply, Read.val_main_v18_apply, Read.val_main_v17_apply, Read.val_main_v16_apply, Read.val_main_v15_apply, Read.val_main_v14_apply, Read.val_main_v13_apply, Read.val_main_v12_apply, Read.val_main_v11_apply, Read.val_main_v10_apply, Read.val_main_v9_apply, Read.val_main_v8_apply, Read.val_main_v7_apply, Read.val_main_v6_apply, Read.val_main_v5_apply, Read.val_main_v4_apply, Read.val_main_v3_apply, Read.val_main_v2_apply, Read.val_main_v1_apply, Read.val_main_v0_apply]
  rw [col0, col1, col2, col3, col4, col5, col6, col7]
  rfl

end Cert.ReferenceIdeal.RowValue

end
-- ==== Proof.lean ====
/-
  The kernel and its reference compute the same array over the extended reals.

  Both take a table of 8388608 rows of 8 numbers and return one number per row,

      tanh ((x0 · x1 + sin x2) · exp (−|x3|) + x4 / (x5 · x5 + exp x6) − x7)

  with `x0 … x7` the row's entries (Proof/RowFormula.lean: `rowOf`, and `rows` for the whole array). The reference
  computes it column by column over the whole table (Proof/ReferenceRows.lean); the kernel computes it 8192 rows at a
  time in 1024 steps, each step writing its rows' results to their own positions of the result array, the steps
  together covering it (Proof/KernelRows.lean). The two programs apply the same operations in the same order; the one
  difference is that the kernel writes `−|x3|` as `0 − |x3|`, the same extended real. No law used here needs an entry to
  be finite, so the precondition is never opened.

  The three frames: the word-level kernel's and the idealized kernel's are the generated frame runs; the reference has
  no kernel launch, and its frame is its run with the result forgotten. The idealization rewrote no operation, so
  `preserves` has nothing to state.
-/
import proofs.«134112_j82643760709953_2_alg».proof.Defs
import proofs.«134112_j82643760709953_2_alg».proof.Proof.Gen.Kernel
import proofs.«134112_j82643760709953_2_alg».proof.Proof.Gen.Kernel.Skeleton
import proofs.«134112_j82643760709953_2_alg».proof.Proof.Gen.Kernel.Launch
import proofs.«134112_j82643760709953_2_alg».proof.Proof.Gen.Kernel.Points
import proofs.«134112_j82643760709953_2_alg».proof.Proof.Gen.Kernel.Frame
import proofs.«134112_j82643760709953_2_alg».proof.Proof.Gen.KernelIdeal
import proofs.«134112_j82643760709953_2_alg».proof.Proof.Gen.KernelIdeal.Skeleton
import proofs.«134112_j82643760709953_2_alg».proof.Proof.Gen.KernelIdeal.Launch
import proofs.«134112_j82643760709953_2_alg».proof.Proof.Gen.KernelIdeal.Points
import proofs.«134112_j82643760709953_2_alg».proof.Proof.Gen.KernelIdeal.Frame
import proofs.«134112_j82643760709953_2_alg».proof.Proof.Gen.ReferenceIdeal
import proofs.«134112_j82643760709953_2_alg».proof.Proof.Gen.Pre_finite_inputs
import proofs.«134112_j82643760709953_2_alg».proof.Proof.Gen.KernelIdeal.Value
import proofs.«134112_j82643760709953_2_alg».proof.Proof.Gen.ReferenceIdeal.Run
import proofs.«134112_j82643760709953_2_alg».proof.Proof.Gen.ReferenceIdeal.Read
import proofs.«134112_j82643760709953_2_alg».proof.Proof.RowFormula
import proofs.«134112_j82643760709953_2_alg».proof.Proof.KernelRows
import proofs.«134112_j82643760709953_2_alg».proof.Proof.ReferenceRows
import Idealize.ShloMosaic.Adequacy
import Idealize.ShloMosaic.Init

noncomputable section

namespace Cert.Proof

open Idealize.ShloMosaic Idealize.SL.Sem

/-- The word-level kernel runs and leaves its argument as it found it. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its argument as it found it: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: no operation was rewritten. -/
theorem preserves : Cert.preserves_Kernel_KernelIdeal := trivial

/-- From memories that agree on the table, the kernel's result array and the reference's result are both `rows` of
    the table: the kernel's by its run read block by block, the reference's by its run read stage by stage. -/
theorem algebraic : Cert.algebraic_KernelIdeal_ReferenceIdeal := by
  intro m ρ m' ρ' _ hagree
  refine ⟨fun c => Cert.RowFormula.rows (m ((c.tc : Thread Cert.KernelIdeal.nD Cert.KernelIdeal.τ).loc Cert.KernelIdeal.main_arg0)),
    Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RowValue.reference_rows, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
